-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S600000 .f32) (main_arg4 : FVec F S128x256 .f32) (main_arg5 : FVec F S256 .f32) (main_arg6 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S600000x1 : Shape := ⟨2, ![600000, 1]⟩
abbrev S_ : Shape := ⟨0, ![]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 26
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S600000x1, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S1x256, .f32⟩
  | .hbm, ⟨24, _⟩ => ⟨S1x256, .f32⟩
  | .hbm, ⟨25, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S600000x1 : Shape := ⟨2, ![600000, 1]⟩
abbrev S_ : Shape := ⟨0, ![]⟩
abbrev S600000x128 : Shape := ⟨2, ![600000, 128]⟩
abbrev S50000x256 : Shape := ⟨2, ![50000, 256]⟩
abbrev S1x256 : Shape := ⟨2, ![1, 256]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S600000x1, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | .hbm, ⟨27, _⟩ => ⟨S_, .f32⟩
  | .hbm, ⟨28, _⟩ => ⟨S50000x256, .f32⟩
  | .hbm, ⟨29, _⟩ => ⟨S50000x256, .i1⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Spec.lean ====
/-
  A dense layer followed by a per-channel leaky rectifier, as ONE function of its arrays, on the extended reals.

  For a matrix `A` with rows of 128 entries, weights `W` (128 × 256), a bias `b` and slopes `a` (256 entries each), the
  entry `(r, c)` of the result is `h` where `h > 0` and `a c · h` elsewhere, with `h = (∑ k, A (r, k) · W (k, c)) + b c`.
  The contraction over `k` is one finite sum over the 128 columns, written the same way whether the rows are those of the
  whole matrix or of a block of it: comparing a row-blocked evaluation with a whole one rearranges no sum, so no entry
  needs to be finite.
-/
import Idealize.ShloMosaic.PureOps.Ideal
import Idealize.ShloMosaic.Lib.ValueIdx

noncomputable section

namespace Cert.DensePrelu

open Idealize.ShloMosaic Idealize.ShloMosaic.ValueIdx

/-- The rectifier at one entry: `h` where `h` is positive, `a · h` elsewhere. The comparison and the zero are the float
    operations' own, read on the extended reals. -/
def leaky (h a : EReal) : EReal :=
  Scalar.select (FloatOps.cmpf (F := Ideal) (φ := .f32) .ogt h (FloatOps.ofBits (F := Ideal) .f32 0x00000000#32)) h (a * h)

/-- Row `r` of a matrix with `M` rows against column `c` of the weights, plus that column's bias, rectified with that
    column's slope. Generic in the number of rows. -/
def entry (M : Nat) (A : (⟨2, ![M, 128]⟩ : Shape).Idx → EReal) (W : (⟨2, ![128, 256]⟩ : Shape).Idx → EReal)
    (b a : (⟨1, ![256]⟩ : Shape).Idx → EReal) (r : Fin M) (c : Fin 256) : EReal :=
  leaky ((∑ k : Fin 128, A (ix2 r k) * W (ix2 k c)) + b (ix1 c)) (a (ix1 c))

/-- The whole result array: `entry` at each index's two coordinates. -/
def G (A : (⟨2, ![50000, 128]⟩ : Shape).Idx → EReal) (W : (⟨2, ![128, 256]⟩ : Shape).Idx → EReal)
    (b a : (⟨1, ![256]⟩ : Shape).Idx → EReal) : (⟨2, ![50000, 256]⟩ : Shape).Idx → EReal :=
  fun j => entry 50000 A W b a (j 0) (j 1)

/-- `entry` depends on the matrix only through the one row it reads. -/
theorem entry_congr_row {M M' : Nat} (A : (⟨2, ![M, 128]⟩ : Shape).Idx → EReal) (A' : (⟨2, ![M', 128]⟩ : Shape).Idx → EReal)
    (W : (⟨2, ![128, 256]⟩ : Shape).Idx → EReal) (b a : (⟨1, ![256]⟩ : Shape).Idx → EReal) (r : Fin M) (r' : Fin M') (c : Fin 256)
    (h : ∀ k : Fin 128, A (ix2 r k) = A' (ix2 r' k)) : entry M A W b a r c = entry M' A' W b a r' c := by
  unfold entry
  rw [Finset.sum_congr rfl fun k _ => by rw [h k]]

end Cert.DensePrelu

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payload.lean ====
/-
  The kernel body's stored value at an index, on the extended reals.

  The body loads a block of 2000 rows of the aggregated matrix, the whole weight matrix, and the bias and the slopes as
  1 × 256 rows. Changing a float's format is the identity on the extended reals and a shape cast to the same shape moves
  nothing, so entry `(p, q)` of what it stores is the rectified `(∑ k, rows (p, k) · W (k, q)) + bias (0, q)`
  with the slope `slopes (0, q)`: the matrix unit's product into a zero accumulator is the plain sum over the 128
  contracted columns, and a 1 × 256 row broadcast down 2000 rows reads its entry of the same column.
-/
import proofs.«142936_j16054587752729_1_alg».proof.Proof.Gen.KernelIdeal.Skeleton
import proofs.«142936_j16054587752729_1_alg».proof.Proof.Spec
import proofs.«142936_j16054587752729_1_alg».proof.Proof.LibPlainDot
import Idealize.ShloMosaic.Lib.Pipeline.Value

noncomputable section

namespace Cert.KernelIdeal.Body

open Cert.KernelIdeal Cert.KernelIdeal.Gen Idealize.ShloMosaic Idealize.ShloMosaic.ValueIdx Cert.DensePrelu

/-- A 1 × 256 row broadcast down 2000 rows, at `(p, q)`: the row's entry in column `q`. -/
theorem row_bcast (x : FVec Ideal S1x256 .f32) (p : Fin 2000) (q : Fin 256) :
    broadcastTo S2000x256 x broadcasts_S1x256_S2000x256 (ix2 p q) = x (ix2 0 q) :=
  broadcastTo_apply x broadcasts_S1x256_S2000x256 (ix2 p q) (ix2 0 q) (fun a => by
    match a with
    | ⟨0, _⟩ => show (0 : Nat) = if (1 : Nat) = 1 then 0 else p.val; rw [if_pos rfl]
    | ⟨1, _⟩ => show q.val = if (256 : Nat) = 1 then 0 else q.val; rw [if_neg (by decide)])

/-- THE STORED VALUE AT `(p, q)`: the rectified row-by-column sum plus bias, of the loaded blocks. -/
theorem pay_apply (xa : Vec Ideal S2000x128 .f32) (xw : Vec Ideal S128x256 .f32) (xb xs : Vec Ideal S1x256 .f32)
    (p : Fin 2000) (q : Fin 256) :
    k0_pay1 xa xw xb xs (ix2 p q)
      = leaky ((∑ k : Fin 128, xa (ix2 p k) * xw (ix2 k q)) + xb (ix2 0 q)) (xs (ix2 0 q)) := by
  show leaky (FloatOps.matmul (F := Ideal) dot_S2000x128_S128x256_S2000x256_1_0_0_1_n_n none
          (truncf .bf16 (shapeCast S2000x128 xa shapeCasts_S2000x128_S2000x128) bitsLt_bf16_f32) (truncf .bf16 xw bitsLt_bf16_f32)
          (constant (F := Ideal) S2000x256 .f32 0x00000000#32) (ix2 p q)
        + broadcastTo S2000x256 (shapeCast S1x256 xb shapeCasts_S1x256_S1x256) broadcasts_S1x256_S2000x256 (ix2 p q))
      (broadcastTo S2000x256 (shapeCast S1x256 xs shapeCasts_S1x256_S1x256) broadcasts_S1x256_S2000x256 (ix2 p q)) = _
  rw [shapeCast_self xa, shapeCast_self xb, shapeCast_self xs]
  refine congrArg₂ leaky (congrArg₂ (· + ·)
    ((Cert.PlainDot.matmul_zero_apply 2000 128 256 none _ _ (ix2 p q)).trans ?_) (row_bcast xb p q)) (row_bcast xs p q)
  rfl

/-- AN ENTRY OF A BLOCK'S STORED VALUE IS THE WHOLE RESULT'S ENTRY `i`, when the loaded rows at the entry's row are the
    matrix's row `i 0`, the loaded weights are the weights, the loaded 1 × 256 rows hold the bias and the slopes, and the
    entry's column is `i 1`. -/
theorem pay_eq_G (A : S50000x128.Idx → EReal) (W : S128x256.Idx → EReal) (b a : S256.Idx → EReal)
    (xa : Vec Ideal S2000x128 .f32) (xw : Vec Ideal S128x256 .f32) (xb xs : Vec Ideal S1x256 .f32)
    (j : S2000x256.Idx) (i : S50000x256.Idx)
    (ha : ∀ k : Fin 128, xa (ix2 (j 0) k) = A (ix2 (i 0) k))
    (hw : xw = W)
    (hb : ∀ q : Fin 256, xb (ix2 0 q) = b (ix1 q))
    (hs : ∀ q : Fin 256, xs (ix2 0 q) = a (ix1 q))
    (hc : j 1 = i 1) :
    k0_pay1 xa xw xb xs j = G A W b a i := by
  obtain ⟨p, q, rfl⟩ : ∃ (p : Fin 2000) (q : Fin 256), j = ix2 p q := ⟨j 0, j 1, eq_ix2 j⟩
  have ha' : ∀ k : Fin 128, xa (ix2 p k) = A (ix2 (i 0) k) := ha
  have hc' : q = i 1 := hc
  subst hw
  have hsum : (∑ k : Fin 128, xa (ix2 p k) * xw (ix2 k q)) = ∑ k : Fin 128, A (ix2 (i 0) k) * xw (ix2 k q) :=
    Finset.sum_congr rfl fun k _ => by rw [ha' k]
  rw [pay_apply, hb q, hs q, hsum]
  show _ = leaky ((∑ k : Fin 128, A (ix2 (i 0) k) * xw (ix2 k (i 1))) + b (ix1 (i 1))) (a (ix1 (i 1)))
  rw [← hc']

end Cert.KernelIdeal.Body

end
-- ==== Proof.Entry.lean ====
/-
  What the region finds in the arrays its windows stage.

  Before the region the program aggregates the node features along the edges — the same sixteen host operations, on the
  same arguments, as the reference's first sixteen — into the matrix window 0 stages, and reshapes the bias and the slopes
  from 256-vectors to 1 × 256 rows for windows 2 and 3. The aggregated matrix is therefore the reference's stage 12 of
  the same arguments: the two programs spell one term, so nothing of the gather or of the scatter-add is opened. A
  1 × 256 reshape of a 256-vector holds entry `q` of the vector at `(0, q)`.
-/
import proofs.«142936_j16054587752729_1_alg».proof.Proof.Gen.KernelIdeal.Frame
import proofs.«142936_j16054587752729_1_alg».proof.Proof.Gen.ReferenceIdeal.Read
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Window 0's array at region entry: the reference's aggregation of the same four arguments. -/
theorem V_agg (c : Dev nD) :
    (V m c main_v12 : S50000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- Window 2's array at region entry: the bias as a 1 × 256 row. -/
theorem V_bias (c : Dev nD) :
    (V m c main_v13 : S1x256.Idx → EReal) = shapeCast S1x256 (m ((c : Thread nD τ).loc main_arg5)) shapeCasts_S256_S1x256 := by
  dsimp only [Gen.V, Gen.hostOps0]
  after_results
  rfl

/-- Window 3's array at region entry: the slopes as a 1 × 256 row. -/
theorem V_slope (c : Dev nD) :
    (V m c main_v14 : S1x256.Idx → EReal) = shapeCast S1x256 (m ((c : Thread nD τ).loc main_arg6)) shapeCasts_S256_S1x256 := by
  dsimp only [Gen.V, Gen.hostOps0]
  after_results
  rfl

/-- A 256-vector reshaped to a 1 × 256 row, at `(0, q)`: the vector's entry `q` (the same row-major position). -/
theorem row_of_vec (x : S256.Idx → EReal) (q : Fin 256) :
    shapeCast S1x256 x shapeCasts_S256_S1x256 (ix2 0 q) = x (ix1 q) :=
  shapeCast_apply x shapeCasts_S256_S1x256 (ix2 0 q) (ix1 q) (by
    rw [Shape.rowMajor_val_one, Shape.rowMajor_val_two]
    show q.val = 0 * 256 + q.val
    omega)

end Cert.KernelIdeal.Entry

end
-- ==== Proof.KernelValue.lean ====
/-
  The kernel's result array as ONE function of its arguments.

  The grid has 25 points; point `t` stages rows `2000·t … 2000·t + 1999` of the aggregated matrix (window 0) and of the
  result (window 4), and the whole weights, bias row and slope row (windows 1–3, block index 0 at every point). Entry
  `(p, q)` of the block point `t` writes back is the rectified `(∑ k, agg (2000·t + p, k) · W (k, q)) + b q`, which is entry
  `(2000·t + p, q)` of `G`: each point writes back its own block of `G`. Row `r` of the result lies in the block of point
  `r / 2000`, so the blocks cover the array and it ends holding `G` of the aggregated matrix, the weights, the bias and the
  slopes.
-/
import proofs.«142936_j16054587752729_1_alg».proof.Proof.Gen.KernelIdeal.Value
import proofs.«142936_j16054587752729_1_alg».proof.Proof.Payload
import proofs.«142936_j16054587752729_1_alg».proof.Proof.Entry

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.DensePrelu Cert.KernelIdeal.Body Cert.KernelIdeal.Entry
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The printed index maps over the 25 points: the row block of the aggregated matrix and of the result is the point's
    number; every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `G` of the arrays the region finds and the bias and slope vectors. -/
theorem flushed_eq (c : Dev nD) (t : Fin cfg0.N) :
    (dats m 0 c).flushed 4 t
      = ((cfg0.win 4).blk t).view.read (Elt Ideal) (G (V m c main_v12) (V m c main_arg4) (m ((c : Thread nD τ).loc main_arg5)) (m ((c : Thread nD τ).loc main_arg6))) := by
  rw [Value.flushed4]
  unfold out0_4
  rw [View.canon_unit_zero off_zero]
  simp only [View.ld_unit_zero (S := S2000x128) off_zero, View.ld_unit_zero (S := S128x256) off_zero, View.ld_unit_zero (S := S1x256) off_zero]
  obtain ⟨e00, e01, e10, e11, e20, e21, e30, e31, e40, e41⟩ := idx_facts t
  funext j
  rw [View.read_apply, cast_eq]
  refine pay_eq_G (V m c main_v12) (V m c main_arg4) (m ((c : Thread nD τ).loc main_arg5)) (m ((c : Thread nD τ).loc main_arg6))
    (iblk m c 0 t) (iblk m c 1 t) (iblk m c 2 t) (iblk m c 3 t)
    ((cfg0.win 4).xinj (grid0.coords t) j) (((cfg0.win 4).blk t).view.emb j) ?_ ?_ ?_ ?_ ?_
  · -- the loaded rows: row `p` of point `t`'s block of the aggregated matrix is its row `2000·t + p`
    intro k
    unfold iblk
    rw [View.read_apply, cast_eq]
    refine congrArg (V m c main_v12) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · -- the loaded weights are the whole weight matrix
    funext y
    unfold iblk
    rw [View.read_apply, cast_eq]
    refine congrArg (V m c main_arg4) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · -- the loaded bias row holds the bias vector
    intro q
    unfold iblk
    rw [View.read_apply, cast_eq]
    have he : ((cfg0.win 2).blk t).view.emb (ix2 0 q) = ix2 0 q := funext fun a => Fin.ext (by
      match a with
      | ⟨0, _⟩ => show win0_2.index t (0 : Fin 2) * 1 + 1 * 0 = 0; omega
      | ⟨1, _⟩ => show win0_2.index t (1 : Fin 2) * 256 + 1 * q.val = q.val; omega)
    rw [he]
    exact (congrFun (V_bias m c) (ix2 0 q)).trans (row_of_vec _ q)
  · -- the loaded slope row holds the slope vector
    intro q
    unfold iblk
    rw [View.read_apply, cast_eq]
    have he : ((cfg0.win 3).blk t).view.emb (ix2 0 q) = ix2 0 q := funext fun a => Fin.ext (by
      match a with
      | ⟨0, _⟩ => show win0_3.index t (0 : Fin 2) * 1 + 1 * 0 = 0; omega
      | ⟨1, _⟩ => show win0_3.index t (1 : Fin 2) * 256 + 1 * q.val = q.val; omega)
    rw [he]
    exact (congrFun (V_slope m c) (ix2 0 q)).trans (row_of_vec _ q)
  · -- the column is the block's own column
    refine Fin.ext ?_
    show (j 1).val = win0_4.index t (1 : Fin 2) * 256 + 1 * (j 1).val
    omega

/-- An index of the result array is in point `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v15).slice (win0_4.rect t)).set ↔ _
  rw [View.set_slice_whole, Rect.mem_set_unit]
  exact Iff.rfl

/-- THE BLOCKS COVER THE ARRAY: row `r` is in the block of point `r / 2000`. -/
theorem cover (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by have := N_0; show (i 0).val / 2000 < grid0.N; omega⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- THE RESULT ARRAY after the run: `G` of the reference's aggregation of the first four arguments, and of the weights, the
    bias and the slopes. -/
theorem final (c : Dev nD) :
    (dats m 0 c).arrAt 4 cfg0.N
      = G (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) := by
  rw [← V_agg m c, ← V_main_arg4 m c]
  exact (dats m 0 c).arrAt_eq_of_cover 4 _ (fun t _ => flushed_eq m c t) cover

/-- The kernel's run: the result at `G` of its arguments, the arguments unchanged. -/
theorem run : θ_run defs (onTc (τ := τ) (main (F := Ideal))) ⟨m, fun _ => 0, ρ⟩ fun r => ∀ c : Dev nD,
      r.2.mem ((c : Thread nD τ).loc main_v15)
          = G (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefValue.lean ====
/-
  The reference's result is the dense layer with the leaky rectifier, of ITS aggregated matrix.

  After the aggregation (stage 12) the reference contracts the 128 columns against the weights, adds the bias broadcast
  over the rows, compares with zero and selects between the sum and the slope times the sum. Read at an index `i` one
  operation at a time: the contraction is the sum over `k` of row `i 0` against column `i 1`, both broadcasts read
  entry `i 1` of their 256-vector, and the rest is entrywise — which is `G` at `i`, term for term.
-/
import proofs.«142936_j16054587752729_1_alg».proof.Proof.Gen.ReferenceIdeal.Read
import proofs.«142936_j16054587752729_1_alg».proof.Proof.Spec

noncomputable section

namespace Cert.ReferenceIdeal.RefValue

open Cert.ReferenceIdeal Cert.ReferenceIdeal.Read Idealize.ShloMosaic Idealize.ShloMosaic.ValueIdx Cert.DensePrelu

/-- THE REFERENCE'S LAST STAGE IS `G` of the aggregated matrix, the weights, the bias and the slopes. -/
theorem result_eq (x0 : (⟨S50000x128, .f32⟩ : BufTy).Contents (Elt Ideal)) (x1 x2 : (⟨S600000, .i32⟩ : BufTy).Contents (Elt Ideal))
    (x3 : (⟨S600000, .f32⟩ : BufTy).Contents (Elt Ideal)) (x4 : (⟨S128x256, .f32⟩ : BufTy).Contents (Elt Ideal))
    (x5 x6 : (⟨S256, .f32⟩ : BufTy).Contents (Elt Ideal)) :
    val_main_v22 (F := Ideal) x0 x1 x2 x3 x4 x5 x6 = G (val_main_v12 (F := Ideal) x0 x1 x2 x3) x4 x5 x6 := by
  funext i
  have el : ∀ k : Fin 128, lidx_main_v13 i k = ix2 (i 0) k := fun k => funext fun a => Fin.ext (by
    match a with
    | ⟨0, _⟩ => rfl
    | ⟨1, _⟩ => rfl)
  have er : ∀ k : Fin 128, ridx_main_v13 i k = ix2 k (i 1) := fun k => funext fun a => Fin.ext (by
    match a with
    | ⟨0, _⟩ => rfl
    | ⟨1, _⟩ => rfl)
  have eb : idx_main_v14 (idx_main_v15 i) = ix1 (i 1) := funext fun a => Fin.ext (by
    match a with
    | ⟨0, _⟩ => rfl)
  have es : idx_main_v19 (idx_main_v20 i) = ix1 (i 1) := funext fun a => Fin.ext (by
    match a with
    | ⟨0, _⟩ => rfl)
  rw [val_main_v22_apply, val_main_v18_apply, val_main_v21_apply, val_main_v16_apply, val_main_v13_apply, val_main_v15_apply,
    val_main_v14_apply, val_main_v17_apply, val_main_cst_1_apply, val_main_v20_apply, val_main_v19_apply]
  simp only [el, er, eb, es]
  rfl

end Cert.ReferenceIdeal.RefValue

end
-- ==== Proof.lean ====
/-
  A graph layer — aggregate the neighbours' features along weighted edges, then a dense layer with a per-channel leaky
  rectifier — computed two ways, equal on the extended reals.

  Both programs first form the aggregated matrix `agg` (50000 × 128) by the same host operations on the same arguments: a
  gather of the source rows, a scaling by the edge weights, and a scatter-add into the target rows. The reference then
  takes `h = agg · W + b` over the whole matrix and keeps `h` where it is positive and `alpha · h` elsewhere. The kernel does
  the same on 25 blocks of 2000 rows, with the operands of the product passed through a narrower float format, which on
  the extended reals changes nothing, and with the product accumulated from zero by the matrix unit, which there is the
  plain sum over the 128 contracted columns. Entry `(r, c)` of either result is the rectified
  `(∑ k, agg (r, k) · W (k, c)) + b c` with slope `alpha c`: one function `G` (Proof/Spec.lean) of `agg`, `W`, `b`, `alpha`.
  No sum is rearranged and nothing is cancelled, so the finiteness of the inputs is never used.

  Proof/Payload.lean reads the kernel body's stored value at an index; Proof/Entry.lean says what the region finds in the
  arrays it stages (the aggregated matrix is the reference's own stage of the same arguments); Proof/KernelValue.lean
  assembles the 25 blocks into the whole array; Proof/RefValue.lean reads the reference's last stage at an index. The
  three frames are the generated runs; the idealization rewrote no operation, so there is nothing to preserve.
-/
import proofs.«142936_j16054587752729_1_alg».proof.Defs
import proofs.«142936_j16054587752729_1_alg».proof.Proof.Gen.Kernel
import proofs.«142936_j16054587752729_1_alg».proof.Proof.Gen.Kernel.Skeleton
import proofs.«142936_j16054587752729_1_alg».proof.Proof.Gen.Kernel.Launch
import proofs.«142936_j16054587752729_1_alg».proof.Proof.Gen.Kernel.Points
import proofs.«142936_j16054587752729_1_alg».proof.Proof.Gen.Kernel.Frame
import proofs.«142936_j16054587752729_1_alg».proof.Proof.Gen.KernelIdeal
import proofs.«142936_j16054587752729_1_alg».proof.Proof.Gen.KernelIdeal.Skeleton
import proofs.«142936_j16054587752729_1_alg».proof.Proof.Gen.KernelIdeal.Launch
import proofs.«142936_j16054587752729_1_alg».proof.Proof.Gen.KernelIdeal.Points
import proofs.«142936_j16054587752729_1_alg».proof.Proof.Gen.KernelIdeal.Frame
import proofs.«142936_j16054587752729_1_alg».proof.Proof.Gen.ReferenceIdeal
import proofs.«142936_j16054587752729_1_alg».proof.Proof.Gen.KernelIdeal.Value
import proofs.«142936_j16054587752729_1_alg».proof.Proof.Gen.ReferenceIdeal.Run
import proofs.«142936_j16054587752729_1_alg».proof.Proof.Gen.ReferenceIdeal.Read
import proofs.«142936_j16054587752729_1_alg».proof.Proof.Gen.Pre_finite_inputs
import proofs.«142936_j16054587752729_1_alg».proof.Proof.KernelValue
import proofs.«142936_j16054587752729_1_alg».proof.Proof.RefValue
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at `G` of the aggregation of the first four
    arguments and of the weights, bias and slopes (Proof/KernelValue.lean), and the reference's last stage is `G` of the
    same (Proof/RefValue.lean). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _ _ _ _ _).trans ?_
  refine (Cert.ReferenceIdeal.RefValue.result_eq _ _ _ _ _ _ _).trans ?_
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
